-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x2 : Shape := ⟨2, ![100000, 2]⟩
abbrev S10000x2 : Shape := ⟨2, ![10000, 2]⟩
abbrev S3300000x2 : Shape := ⟨2, ![3300000, 2]⟩
abbrev S100000x1 : Shape := ⟨2, ![100000, 1]⟩
abbrev S1x2 : Shape := ⟨2, ![1, 2]⟩
abbrev S10000x1 : Shape := ⟨2, ![10000, 1]⟩
abbrev S200000 : Shape := ⟨1, ![200000]⟩

abbrev nBuf : Space → Nat
  | .hbm => 92
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x2, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x2, .f32⟩
  | .hbm, ⟨75, _⟩ => ⟨S3300000x1, .f32⟩
  | .hbm, ⟨76, _⟩ => ⟨S3300000x2, .f32⟩
  | .hbm, ⟨77, _⟩ => ⟨S3300000x2, .f32⟩
  | .hbm, ⟨78, _⟩ => ⟨S_, .f32⟩
  | .hbm, ⟨79, _⟩ => ⟨S100000x2, .f32⟩
  | .hbm, ⟨80, _⟩ => ⟨S3300000x1, .i32⟩
  | .hbm, ⟨81, _⟩ => ⟨S100000x2, .f32⟩
  | .hbm, ⟨82, _⟩ => ⟨S100000x1, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .i1⟩
  | .hbm, ⟨87, _⟩ => ⟨S100000, .f32⟩
  | .hbm, ⟨88, _⟩ => ⟨S100000x1, .f32⟩
  | .hbm, ⟨89, _⟩ => ⟨S1x2, .f32⟩
  | .hbm, ⟨90, _⟩ => ⟨S100000x2, .f32⟩
  | .hbm, ⟨91, _⟩ => ⟨S200000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x2, .f32⟩
  | .local _ .vmem, ⟨13, _⟩ => ⟨S10000x2, .f32⟩
  | .local _ .vmem, ⟨14, _⟩ => ⟨S10000x2, .f32⟩
  | .local _ .vmem, ⟨15, _⟩ => ⟨S10000x2, .f32⟩
  | .local _ .vmem, ⟨16, _⟩ => ⟨S10000x2, .f32⟩
  | .local _ .vmem, ⟨17, _⟩ => ⟨S1x2, .f32⟩
  | .local _ .vmem, ⟨18, _⟩ => ⟨S10000x1, .f32⟩
  | .local _ .vmem, ⟨19, _⟩ => ⟨S10000x1, .f32⟩
  | .local _ .vmem, ⟨20, _⟩ => ⟨S10000x2, .f32⟩
  | .local _ .vmem, ⟨21, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  slices_S100000x128_S100000x1_0_0 : S100000x128.Slices ![0, 0] S100000x1
  shapeCasts_S100000x1_S100000 : S100000x1.ShapeCasts S100000
  shapeCasts_S100000_S100000x1 : S100000.ShapeCasts S100000x1
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x2 : S10000x1.Broadcasts S10000x2
  shapeCasts_S100000x2_S200000 : S100000x2.ShapeCasts S200000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x2_S10000x2_1_0_0_1_n_n_wf : DotDims.WF S10000x64 S64x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S100000x2.size a
  hwx3_0 : ∀ i : grid3.Coords, EltTy.bits .f32 = 32 ∨ (Rect.block (s := S100000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x2.size a ≤ S100000x2.size a
  hwx3_3 : ∀ i : grid3.Coords, EltTy.bits .f32 = 32 ∨ (Rect.block (s := S100000x2) S10000x2.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S10000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩
abbrev S200000 : Shape := ⟨1, ![200000]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S100000x1, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .i1⟩
  | .hbm, ⟨94, _⟩ => ⟨S100000, .f32⟩
  | .hbm, ⟨95, _⟩ => ⟨S100000x1, .f32⟩
  | .hbm, ⟨96, _⟩ => ⟨S100000x2, .f32⟩
  | .hbm, ⟨97, _⟩ => ⟨S100000x2, .f32⟩
  | .hbm, ⟨98, _⟩ => ⟨S200000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  slices_S100000x128_S100000x1_0_0 : S100000x128.Slices ![0, 0] S100000x1
  shapeCasts_S100000x1_S100000 : S100000x1.ShapeCasts S100000
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  shapeCasts_S100000x2_S200000 : S100000x2.ShapeCasts S200000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x2_S100000x2_1_0_0_1_n_n_wf : DotDims.WF S100000x64 S64x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel's run with its RESULT named. @main is ten segments — host operations, the first matrix product's
  region, host operations, the bias-and-rectifier region, the second matrix product's region, host operations, the
  bias-and-mask region, and the final reshape — and the contents of every buffer at each segment boundary are a fold
  from the launch memory (`Gen.W0` … `Gen.W10`). The launch theorem for a program of several regions ends with every
  unscoped buffer at the last boundary's contents; the generated frame keeps of that only the argument arrays. Here
  the same launch is read at the result buffer as well: every weakly fair execution terminates with the returned
  vector at `Gen.W10 … main_v68` and the six arguments as launched. What `Gen.W10 … main_v68` IS, as a function of the
  arguments, is the business of the modules that follow.
-/
import proofs.«120064_j56435870270044_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the returned vector at the last segment
    boundary's contents of its buffer and the argument arrays as launched. -/
theorem run_result : θ_run defs (onTc (τ := τ) (main (F := F))) ⟨m, fun _ => 0, ρ⟩ (fun r => ∀ c : Dev nD,
      r.2.mem ((c.tc : Thread nD τ).loc main_v68) = W10 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v68 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Result

end
-- ==== Proof.Boundary0.lean ====
/-
  The host operations before the first region. They build, from the edge list alone, the source and destination node
  of every edge with one self loop per node appended, the in-degree of every node, its inverse square root where the
  degree is positive (zero elsewhere), and from these the symmetric normalisation weight of every edge. The reference
  computes the same arrays by the same operations in the same order, so at the first region's entry the kernel's
  buffers hold exactly the reference's stages; no argument array has been written. The operations come in three
  stretches (the middle one is the outlined selection of the inverse square root), read here one stretch at a time:
  each stretch is read over an arbitrary valuation of the buffers before it, of which only the facts established for
  the previous stretch are used.
-/
import proofs.«120064_j56435870270044_1_alg».proof.Proof.Gen.KernelIdeal.Frame
import proofs.«120064_j56435870270044_1_alg».proof.Proof.RefRead
import Idealize.ShloMosaic.Lib.StableHlo.Run
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.StableHlo
open Idealize.ShloMosaic.ValueIdx

namespace Cert.KernelIdeal.Boundary

open Cert.KernelIdeal Cert.KernelIdeal.Gen Cert.ReferenceIdeal.ReadP

variable (m : (ℓ : Loc nD τ sig) → Buf (Elt Ideal) ℓ) (ρ : Dev nD → PrngReg)

/-! ## After the first stretch: edges with self loops, degrees -/

/-- The source node of every edge, self loops appended. -/
theorem W1_src (c : Dev nD) : W1 m ρ c (Proc.devRef .tc main_v3) = val_main_v3 (F := Ideal) (m ((c.tc : Thread nD τ).loc main_arg1)) := by
  dsimp only [W1, W0, hostOps0]
  after_results_simp
  rfl

/-- The destination node of every edge, self loops appended. -/
theorem W1_dst (c : Dev nD) : W1 m ρ c (Proc.devRef .tc main_v6) = val_main_v6 (F := Ideal) (m ((c.tc : Thread nD τ).loc main_arg1)) := by
  dsimp only [W1, W0, hostOps0]
  after_results_simp
  rfl

/-- Where the in-degree is positive. -/
theorem W1_pos (c : Dev nD) : W1 m ρ c (Proc.devRef .tc main_v12) = val_main_v12 (F := Ideal) (m ((c.tc : Thread nD τ).loc main_arg1)) := by
  dsimp only [W1, W0, hostOps0]
  after_results_simp
  rfl

/-- The inverse square root of the in-degree. -/
theorem W1_rsqrt (c : Dev nD) : W1 m ρ c (Proc.devRef .tc main_v13) = val_main_v13 (F := Ideal) (m ((c.tc : Thread nD τ).loc main_arg1)) := by
  dsimp only [W1, W0, hostOps0]
  after_results_simp
  rfl

/-- The zero the selection falls back to. -/
theorem W1_zero (c : Dev nD) : W1 m ρ c (Proc.devRef .tc main_cst_2) = val_main_cst_2 (F := Ideal) := by
  dsimp only [W1, W0, hostOps0]
  after_results_simp
  rfl

theorem W1_arg0 (c : Dev nD) : W1 m ρ c (Proc.devRef .tc main_arg0) = m ((c.tc : Thread nD τ).loc main_arg0) := by
  dsimp only [W1, W0, hostOps0]
  after_results_simp

theorem W1_arg2 (c : Dev nD) : W1 m ρ c (Proc.devRef .tc main_arg2) = m ((c.tc : Thread nD τ).loc main_arg2) := by
  dsimp only [W1, W0, hostOps0]
  after_results_simp

theorem W1_arg3 (c : Dev nD) : W1 m ρ c (Proc.devRef .tc main_arg3) = m ((c.tc : Thread nD τ).loc main_arg3) := by
  dsimp only [W1, W0, hostOps0]
  after_results_simp

theorem W1_arg4 (c : Dev nD) : W1 m ρ c (Proc.devRef .tc main_arg4) = m ((c.tc : Thread nD τ).loc main_arg4) := by
  dsimp only [W1, W0, hostOps0]
  after_results_simp

theorem W1_arg5 (c : Dev nD) : W1 m ρ c (Proc.devRef .tc main_arg5) = m ((c.tc : Thread nD τ).loc main_arg5) := by
  dsimp only [W1, W0, hostOps0]
  after_results_simp

/-! ## After the second stretch: the inverse square root of the degree where it is positive, zero elsewhere -/

/-- The outlined selection, on any three arrays: a tensor's contents read from its buffer, or written to it, are the
    same array (the buffer's type IS the tensor's), so the selection of `p`, `r` and the spread scalar `z` through the
    call's buffers is the selection of `p`, `r` and the spread `z`. -/
theorem selection_through_buffers
    (h14 : main_v14.ty = (⟨S100000, .f32⟩ : BufTy)) (h12 : main_v12.ty = (⟨S100000, .i1⟩ : BufTy))
    (h13 : main_v13.ty = (⟨S100000, .f32⟩ : BufTy)) (hc1 : main_call0_v1.ty = (⟨S100000, .f32⟩ : BufTy))
    (hc0 : main_call0_v0.ty = (⟨S_, .f32⟩ : BufTy)) (hz : main_cst_2.ty = (⟨S_, .f32⟩ : BufTy))
    (p : (⟨S100000, .i1⟩ : BufTy).Contents (Elt Ideal)) (r : (⟨S100000, .f32⟩ : BufTy).Contents (Elt Ideal))
    (z : (⟨S_, .f32⟩ : BufTy).Contents (Elt Ideal)) :
    (TRef.of (sig := sig) main_v14 h14).toBuf (select ((TRef.of (sig := sig) main_v12 h12).ofBuf p)
      ((TRef.of (sig := sig) main_v13 h13).ofBuf r)
      ((TRef.of (sig := sig) main_call0_v1 hc1).ofBuf ((TRef.of (sig := sig) main_call0_v1 hc1).toBuf
        (broadcastInDim S100000 ![] Cert.KernelIdeal.Facts₀.bcast_S_S100000
          ((TRef.of (sig := sig) main_call0_v0 hc0).ofBuf ((TRef.of (sig := sig) main_call0_v0 hc0).toBuf
            (id ((TRef.of (sig := sig) main_cst_2 hz).ofBuf z))))))))
      = select p r (broadcastInDim Cert.ReferenceIdeal.S100000 ![] Cert.ReferenceIdeal.Facts₀.bcast_S_S100000 (id z)) := rfl

/-- The inverse square root of the in-degree where it is positive, zero elsewhere. -/
theorem W2_dinv (c : Dev nD) : W2 m ρ c (Proc.devRef .tc main_v14) = val_main_v14 (F := Ideal) (m ((c.tc : Thread nD τ).loc main_arg1)) := by
  have h0 := W1_pos m ρ c
  have h1 := W1_rsqrt m ρ c
  have h2 := W1_zero m ρ c
  dsimp only [W2, hostOps0_1]
  generalize W1 m ρ c = V at h0 h1 h2 ⊢
  after_results_simp
  rw [h0, h1, h2]
  unfold val_main_v14 val_main_call0_v1 val_main_call0_v0
  exact selection_through_buffers _ _ _ _ _ _ _ _ _

theorem W2_src (c : Dev nD) : W2 m ρ c (Proc.devRef .tc main_v3) = val_main_v3 (F := Ideal) (m ((c.tc : Thread nD τ).loc main_arg1)) := by
  have h0 := W1_src m ρ c
  dsimp only [W2, hostOps0_1]
  generalize W1 m ρ c = V at h0 ⊢
  after_results_simp
  exact h0

theorem W2_dst (c : Dev nD) : W2 m ρ c (Proc.devRef .tc main_v6) = val_main_v6 (F := Ideal) (m ((c.tc : Thread nD τ).loc main_arg1)) := by
  have h0 := W1_dst m ρ c
  dsimp only [W2, hostOps0_1]
  generalize W1 m ρ c = V at h0 ⊢
  after_results_simp
  exact h0

theorem W2_arg0 (c : Dev nD) : W2 m ρ c (Proc.devRef .tc main_arg0) = m ((c.tc : Thread nD τ).loc main_arg0) := by
  have h0 := W1_arg0 m ρ c
  dsimp only [W2, hostOps0_1]
  generalize W1 m ρ c = V at h0 ⊢
  after_results_simp
  exact h0

theorem W2_arg2 (c : Dev nD) : W2 m ρ c (Proc.devRef .tc main_arg2) = m ((c.tc : Thread nD τ).loc main_arg2) := by
  have h0 := W1_arg2 m ρ c
  dsimp only [W2, hostOps0_1]
  generalize W1 m ρ c = V at h0 ⊢
  after_results_simp
  exact h0

theorem W2_arg3 (c : Dev nD) : W2 m ρ c (Proc.devRef .tc main_arg3) = m ((c.tc : Thread nD τ).loc main_arg3) := by
  have h0 := W1_arg3 m ρ c
  dsimp only [W2, hostOps0_1]
  generalize W1 m ρ c = V at h0 ⊢
  after_results_simp
  exact h0

theorem W2_arg4 (c : Dev nD) : W2 m ρ c (Proc.devRef .tc main_arg4) = m ((c.tc : Thread nD τ).loc main_arg4) := by
  have h0 := W1_arg4 m ρ c
  dsimp only [W2, hostOps0_1]
  generalize W1 m ρ c = V at h0 ⊢
  after_results_simp
  exact h0

theorem W2_arg5 (c : Dev nD) : W2 m ρ c (Proc.devRef .tc main_arg5) = m ((c.tc : Thread nD τ).loc main_arg5) := by
  have h0 := W1_arg5 m ρ c
  dsimp only [W2, hostOps0_1]
  generalize W1 m ρ c = V at h0 ⊢
  after_results_simp
  exact h0

/-! ## After the third stretch (the first region's entry): the normalisation weight of every edge -/

/-- The normalisation weight of every edge: the product of the two end nodes' inverse square root degrees. -/
theorem W3_norm (c : Dev nD) : W3 m ρ c (Proc.devRef .tc main_v29) = val_main_v29 (F := Ideal) (m ((c.tc : Thread nD τ).loc main_arg1)) := by
  have h0 := W2_dinv m ρ c
  have h1 := W2_src m ρ c
  have h2 := W2_dst m ρ c
  dsimp only [W3, hostOps0_2]
  generalize W2 m ρ c = V at h0 h1 h2 ⊢
  after_results_simp
  rw [h0, h1, h2]
  rfl

theorem W3_src (c : Dev nD) : W3 m ρ c (Proc.devRef .tc main_v3) = val_main_v3 (F := Ideal) (m ((c.tc : Thread nD τ).loc main_arg1)) := by
  have h0 := W2_src m ρ c
  dsimp only [W3, hostOps0_2]
  generalize W2 m ρ c = V at h0 ⊢
  after_results_simp
  exact h0

theorem W3_dst (c : Dev nD) : W3 m ρ c (Proc.devRef .tc main_v6) = val_main_v6 (F := Ideal) (m ((c.tc : Thread nD τ).loc main_arg1)) := by
  have h0 := W2_dst m ρ c
  dsimp only [W3, hostOps0_2]
  generalize W2 m ρ c = V at h0 ⊢
  after_results_simp
  exact h0

theorem W3_arg0 (c : Dev nD) : W3 m ρ c (Proc.devRef .tc main_arg0) = m ((c.tc : Thread nD τ).loc main_arg0) := by
  have h0 := W2_arg0 m ρ c
  dsimp only [W3, hostOps0_2]
  generalize W2 m ρ c = V at h0 ⊢
  after_results_simp
  exact h0

theorem W3_arg2 (c : Dev nD) : W3 m ρ c (Proc.devRef .tc main_arg2) = m ((c.tc : Thread nD τ).loc main_arg2) := by
  have h0 := W2_arg2 m ρ c
  dsimp only [W3, hostOps0_2]
  generalize W2 m ρ c = V at h0 ⊢
  after_results_simp
  exact h0

theorem W3_arg3 (c : Dev nD) : W3 m ρ c (Proc.devRef .tc main_arg3) = m ((c.tc : Thread nD τ).loc main_arg3) := by
  have h0 := W2_arg3 m ρ c
  dsimp only [W3, hostOps0_2]
  generalize W2 m ρ c = V at h0 ⊢
  after_results_simp
  exact h0

theorem W3_arg4 (c : Dev nD) : W3 m ρ c (Proc.devRef .tc main_arg4) = m ((c.tc : Thread nD τ).loc main_arg4) := by
  have h0 := W2_arg4 m ρ c
  dsimp only [W3, hostOps0_2]
  generalize W2 m ρ c = V at h0 ⊢
  after_results_simp
  exact h0

theorem W3_arg5 (c : Dev nD) : W3 m ρ c (Proc.devRef .tc main_arg5) = m ((c.tc : Thread nD τ).loc main_arg5) := by
  have h0 := W2_arg5 m ρ c
  dsimp only [W3, hostOps0_2]
  generalize W2 m ρ c = V at h0 ⊢
  after_results_simp
  exact h0

end Cert.KernelIdeal.Boundary

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.FirstProduct.lean ====
/-
  The first region of the kernel is the first layer's linear map, x · W1. Its grid has ten points; point t stages rows
  10000·t … 10000·t + 9999 of x [100000, 128] (all columns), the whole of W1 [128, 64], and writes back the same rows of
  the [100000, 64] result. The body narrows both blocks to bf16 and multiplies them on the matrix unit into a zero
  accumulator; on the extended reals a change of float format is the identity and that product is the plain sum
  over the shared axis, so the body's value at row p, column q of a block is the sum over k of x[p, k] · W1[k, q].
  What point t writes back is therefore block t of ONE function of the two arrays, and the ten blocks tile the result
  (row r lies in block r / 10000): the result array ends holding, at (r, q), the sum over k of x[r, k] · W1[k, q].
-/
import proofs.«120064_j56435870270044_1_alg».proof.Proof.Gen.KernelIdeal.Frame
import Idealize.ShloMosaic.Lib.Pipeline.Value
import Idealize.ShloMosaic.Lib.ValueIdx
import proofs.«120064_j56435870270044_1_alg».proof.Proof.LibPlainDot
set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.FirstProduct

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The matrix product as one function of the two arrays: at (r, q) the sum over k of a[r, k] · w[k, q], on the
    extended reals. -/
def product (a : S100000x128.Idx → EReal) (w : S128x64.Idx → EReal) : S100000x64.Idx → EReal :=
  fun i => ∑ k : Fin 128, a (ix2 (n0 := 100000) (i 0) k) * w (ix2 k (n1 := 64) (i 1))

/-- The index maps over the grid: the left operand's and the result's windows move one block of rows per point, the
    right operand's window stays. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at row `p`, column `q` of a block, on the extended reals: the changes of float format are the
    identity there and the matrix unit's product into the zero accumulator is the plain sum over the shared axis. -/
theorem body_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact Cert.Lib.PlainDot.matmul_plain_zero_apply (M := 10000) (K := 128) (N := 64) none
    (truncf .bf16 x0 bitsLt_bf16_f32) (truncf .bf16 x1 bitsLt_bf16_f32) p q

/-- What point `t` writes back is block `t` of the product of the two arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeros]
  simp only [View.ld_unit_zero (S := S10000x128) zeros, View.ld_unit_zero (S := S128x64) zeros]
  obtain ⟨e0, e1, e2, e3, e4, e5⟩ := blockIdx t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = product (V c main_arg0) (V c main_arg2) (((cfg0.win 2).blk t).view.emb (ix2 p q))
  refine (body_apply (iblk0 V c 0 t) (iblk0 V c 1 t) p q).trans ?_
  refine Finset.sum_congr rfl fun k _ => ?_
  have h0 : ((cfg0.win 0).blk t).view.emb (ix2 p k)
      = ix2 (n0 := 100000) ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q)
      = ix2 k (n1 := 64) ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have g0 : iblk0 V c 0 t (ix2 p k)
      = V c main_arg0 (ix2 (n0 := 100000) ((((cfg0.win 2).blk t).view.emb (ix2 p q)) 0) k) := congrArg (V c main_arg0) h0
  have g1 : iblk0 V c 1 t (ix2 k q)
      = V c main_arg2 (ix2 k (n1 := 64) ((((cfg0.win 2).blk t).view.emb (ix2 p q)) 1)) := congrArg (V c main_arg2) h1
  rw [g0, g1]

/-- An index of the output is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the output lies in the block of point `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < cfg0.N := by show _ < grid0.N; rw [hN]; omega
  obtain ⟨e0, e1, e2, e3, e4, e5⟩ := blockIdx ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-- After the region the output array holds the product of the two input arrays as the region found them. -/
theorem array_eq (c : Dev nD) : (dat0 V c).arrAt 2 cfg0.N = product (V c main_arg0) (V c main_arg2) :=
  (dat0 V c).arrAt_eq_of_cover 2 _ (fun t _ => flushed_eq V c t) cover

end Cert.KernelIdeal.FirstProduct

end
-- ==== Proof.Boundary1.lean ====
/-
  The first region and the host operations up to the second. The first region leaves, in its result array, the matrix
  product x · W1 entry by entry as the sum over the shared axis — the reference's `dot_general` stage, read at an index —
  and touches no other buffer. The host operations that follow gather that product's rows at every edge's source node,
  scale each gathered row by the edge's weight and add the rows up at the edge's destination node: the same operations,
  in the same order, as the reference's first aggregation; and they reshape the first bias vector into a row.
-/
import proofs.«120064_j56435870270044_1_alg».proof.Proof.Boundary0
import proofs.«120064_j56435870270044_1_alg».proof.Proof.FirstProduct
import Idealize.ShloMosaic.Lib.StableHlo.Run
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.StableHlo
open Idealize.ShloMosaic.ValueIdx

namespace Cert.KernelIdeal.Boundary

open Cert.KernelIdeal Cert.KernelIdeal.Gen Cert.ReferenceIdeal.ReadP

variable (m : (ℓ : Loc nD τ sig) → Buf (Elt Ideal) ℓ) (ρ : Dev nD → PrngReg)

/-! ## At the first region's exit -/

/-- The first layer's linear map: the region's result array is the reference's matrix product. -/
theorem W4_lin1 (c : Dev nD) :
    W4 m ρ c (Proc.devRef .tc main_v30) = val_main_v30 (F := Ideal) (m ((c.tc : Thread nD τ).loc main_arg0)) (m ((c.tc : Thread nD τ).loc main_arg2)) := by
  refine (W4_arr m ρ c 2).trans ((FirstProduct.array_eq (V3 m ρ) c).trans ?_)
  show FirstProduct.product (W3 m ρ c (Proc.devRef .tc main_arg0)) (W3 m ρ c (Proc.devRef .tc main_arg2)) = _
  rw [W3_arg0 m ρ c, W3_arg2 m ρ c]
  funext i
  rw [val_main_v30_apply]
  unfold FirstProduct.product
  refine Finset.sum_congr rfl fun k _ => ?_
  have hl : ix2 (n0 := 100000) (i 0) k = lidx_main_v30 i k := funext fun a => by
    match a with
    | ⟨0, _⟩ => rfl
    | ⟨1, _⟩ => rfl
  have hr : ix2 k (n1 := 64) (i 1) = ridx_main_v30 i k := funext fun a => by
    match a with
    | ⟨0, _⟩ => rfl
    | ⟨1, _⟩ => rfl
  rw [hl, hr]

theorem W4_src (c : Dev nD) : W4 m ρ c (Proc.devRef .tc main_v3) = val_main_v3 (F := Ideal) (m ((c.tc : Thread nD τ).loc main_arg1)) :=
  (W4_of_ne m ρ c main_v3 (by decide)).trans (W3_src m ρ c)

theorem W4_dst (c : Dev nD) : W4 m ρ c (Proc.devRef .tc main_v6) = val_main_v6 (F := Ideal) (m ((c.tc : Thread nD τ).loc main_arg1)) :=
  (W4_of_ne m ρ c main_v6 (by decide)).trans (W3_dst m ρ c)

theorem W4_norm (c : Dev nD) : W4 m ρ c (Proc.devRef .tc main_v29) = val_main_v29 (F := Ideal) (m ((c.tc : Thread nD τ).loc main_arg1)) :=
  (W4_of_ne m ρ c main_v29 (by decide)).trans (W3_norm m ρ c)

theorem W4_arg3 (c : Dev nD) : W4 m ρ c (Proc.devRef .tc main_arg3) = m ((c.tc : Thread nD τ).loc main_arg3) :=
  (W4_of_ne m ρ c main_arg3 (by decide)).trans (W3_arg3 m ρ c)

theorem W4_arg4 (c : Dev nD) : W4 m ρ c (Proc.devRef .tc main_arg4) = m ((c.tc : Thread nD τ).loc main_arg4) :=
  (W4_of_ne m ρ c main_arg4 (by decide)).trans (W3_arg4 m ρ c)

theorem W4_arg5 (c : Dev nD) : W4 m ρ c (Proc.devRef .tc main_arg5) = m ((c.tc : Thread nD τ).loc main_arg5) :=
  (W4_of_ne m ρ c main_arg5 (by decide)).trans (W3_arg5 m ρ c)

/-- The node features are an INPUT of the first region: its array after the region is its array before. -/
theorem W4_arg0 (c : Dev nD) : W4 m ρ c (Proc.devRef .tc main_arg0) = m ((c.tc : Thread nD τ).loc main_arg0) :=
  ((W4_arr m ρ c 0).trans (((dat0 (V3 m ρ) c).arrAt_in 0 rfl _).trans (A_eq0 (V3 m ρ) c 0))).trans (W3_arg0 m ρ c)

/-! ## At the second region's entry -/

/-- The first aggregation: the reference's sum, over the edges into each node, of the weighted rows of x · W1. -/
theorem W5_agg1 (c : Dev nD) :
    W5 m ρ c (Proc.devRef .tc main_v43) = val_main_v43 (F := Ideal) (m ((c.tc : Thread nD τ).loc main_arg0)) (m ((c.tc : Thread nD τ).loc main_arg1)) (m ((c.tc : Thread nD τ).loc main_arg2)) := by
  dsimp only [W5, hostOps1]
  after_results_simp
  rw [W4_lin1 m ρ c, W4_src m ρ c, W4_dst m ρ c, W4_norm m ρ c]
  rfl

/-- The first bias vector as a row. -/
theorem W5_bias1 (c : Dev nD) :
    W5 m ρ c (Proc.devRef .tc main_v44) = shapeCast S1x64 (m ((c.tc : Thread nD τ).loc main_arg3)) Cert.KernelIdeal.Facts₀.shapeCasts_S64_S1x64 := by
  dsimp only [W5, hostOps1]
  after_results_simp
  rw [W4_arg3 m ρ c]
  rfl

theorem W5_src (c : Dev nD) : W5 m ρ c (Proc.devRef .tc main_v3) = val_main_v3 (F := Ideal) (m ((c.tc : Thread nD τ).loc main_arg1)) := by
  dsimp only [W5, hostOps1]
  after_results_simp
  exact W4_src m ρ c

theorem W5_dst (c : Dev nD) : W5 m ρ c (Proc.devRef .tc main_v6) = val_main_v6 (F := Ideal) (m ((c.tc : Thread nD τ).loc main_arg1)) := by
  dsimp only [W5, hostOps1]
  after_results_simp
  exact W4_dst m ρ c

theorem W5_norm (c : Dev nD) : W5 m ρ c (Proc.devRef .tc main_v29) = val_main_v29 (F := Ideal) (m ((c.tc : Thread nD τ).loc main_arg1)) := by
  dsimp only [W5, hostOps1]
  after_results_simp
  exact W4_norm m ρ c

theorem W5_arg0 (c : Dev nD) : W5 m ρ c (Proc.devRef .tc main_arg0) = m ((c.tc : Thread nD τ).loc main_arg0) := by
  dsimp only [W5, hostOps1]
  after_results_simp
  exact W4_arg0 m ρ c

theorem W5_arg4 (c : Dev nD) : W5 m ρ c (Proc.devRef .tc main_arg4) = m ((c.tc : Thread nD τ).loc main_arg4) := by
  dsimp only [W5, hostOps1]
  after_results_simp
  exact W4_arg4 m ρ c

theorem W5_arg5 (c : Dev nD) : W5 m ρ c (Proc.devRef .tc main_arg5) = m ((c.tc : Thread nD τ).loc main_arg5) := by
  dsimp only [W5, hostOps1]
  after_results_simp
  exact W4_arg5 m ρ c

end Cert.KernelIdeal.Boundary

end
-- ==== Proof.BiasRelu.lean ====
/-
  The second region of the kernel adds the bias row to the aggregated features and rectifies: out = max(agg + b, 0).
  Its grid has ten points; point t stages rows 10000·t … 10000·t + 9999 of the [100000, 64] input (all 64 columns), the
  whole [1, 64] bias row, and writes back the same rows of the output. The body's value at row p, column q of a block is
  max(x[p, q] + b[0, q], 0), so what point t writes back is block t of ONE function of the two arrays as the region
  finds them; the ten blocks tile the output (row r lies in block r / 10000), so the output array ends holding that
  function everywhere.
-/
import proofs.«120064_j56435870270044_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.BiasRelu

open Cert.KernelIdeal Cert.KernelIdeal.Gen

variable {F : FTy → Type} [FloatOps F]
variable (V : (c : Dev nD) → (b : Ref sig .tc) → Buf (Elt F) ((c : Thread nD τ).loc b))

theorem zeros : (![0, 0] : Fin 2 → Nat) = fun _ => 0 := funext fun a => by fin_cases a <;> rfl

/-- The rectified biased features as one function of the aggregated features `a` [100000, 64] and the bias row `b`
    [1, 64]: at (r, q) it is max(a[r, q] + b[0, q], 0). -/
def biasRelu (a : S100000x64.Idx → Elt F .f32) (b : S1x64.Idx → Elt F .f32) : S100000x64.Idx → Elt F .f32 :=
  fun i => FloatOps.maximumf (FloatOps.addf (a i) (b (ix2 0 (i 1)))) (Scalar.ofBits .f32 0x00000000#32)

/-- The index maps over the grid: the feature windows move one block of rows per point, the bias window stays. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at row `p`, column `q` of a block: max(x[p, q] + b[0, q], 0). -/
theorem body_apply (x0 : Vec F S10000x64 .f32) (x1 : Vec F S1x64 .f32) (p : Fin 10000) (q : Fin 64) :
    k1_pay1 x0 x1 (ix2 p q)
      = FloatOps.maximumf (FloatOps.addf (x0 (ix2 p q)) (x1 (ix2 0 q))) (Scalar.ofBits .f32 0x00000000#32) := by
  unfold k1_pay1
  show FloatOps.maximumf (FloatOps.addf (shapeCast S10000x64 x0 _ (ix2 p q))
    (broadcastTo S10000x64 (shapeCast S1x64 x1 _) _ (ix2 p q))) _ = _
  rw [shapeCast_self, shapeCast_self, broadcastTo_apply _ _ _ (ix2 0 q) (fun a => by
    match a with
    | ⟨0, _⟩ => rfl
    | ⟨1, _⟩ => rfl)]
  rfl

/-- What point `t` writes back is block `t` of `biasRelu` of the two arrays as the region finds them. -/
theorem flushed_eq (c : Dev nD) (t : Fin cfg1.N) :
    (dat1 V c).flushed 2 t = ((cfg1.win 2).blk t).view.read (Elt F) (biasRelu (V c main_v43) (V c main_v44)) := by
  show (cfg1.win 2).cut (grid1.coords t) ((dat1 V c).after 2 t) = _
  rw [after1_2]
  unfold out1_2
  rw [View.canon_unit_zero zeros]
  simp only [View.ld_unit_zero (S := S10000x64) zeros, View.ld_unit_zero (S := S1x64) zeros]
  obtain ⟨e0, e1, e2, e3, e4, e5⟩ := blockIdx t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = biasRelu (V c main_v43) (V c main_v44) (((cfg1.win 2).blk t).view.emb (ix2 p q))
  refine (body_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 0 q) = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  show FloatOps.maximumf (FloatOps.addf (V c main_v43 (((cfg1.win 0).blk t).view.emb (ix2 p q)))
      (V c main_v44 (((cfg1.win 1).blk t).view.emb (ix2 0 q)))) _ = _
  rw [h0, h1]
  rfl

/-- An index of the output is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row `r` of the output lies in the block of point `r / 10000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < cfg1.N := by show _ < grid1.N; rw [hN]; omega
  obtain ⟨e0, e1, e2, e3, e4, e5⟩ := blockIdx ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- After the region the output array holds `biasRelu` of the two input arrays as the region found them. -/
theorem array_eq (c : Dev nD) : (dat1 V c).arrAt 2 cfg1.N = biasRelu (V c main_v43) (V c main_v44) :=
  (dat1 V c).arrAt_eq_of_cover 2 _ (fun t _ => flushed_eq V c t) cover

end Cert.KernelIdeal.BiasRelu

end
-- ==== Proof.SecondProduct.lean ====
/-
  The third region of the kernel is the second layer's linear map, h · W2. Its grid has ten points; point t stages rows
  10000·t … 10000·t + 9999 of h [100000, 64] (all columns), the whole of W2 [64, 2], and writes back the same rows of the
  [100000, 2] result. The body narrows both blocks to bf16 and multiplies them on the matrix unit into a zero accumulator;
  on the extended reals a change of float format is the identity and that product is the plain sum over the shared
  axis, so the body's value at row p, column q of a block is the sum over k of h[p, k] · W2[k, q]. What point t writes
  back is block t of ONE function of the two arrays, and the ten blocks tile the result (row r lies in block r / 10000):
  the result array ends holding, at (r, q), the sum over k of h[r, k] · W2[k, q].
-/
import proofs.«120064_j56435870270044_1_alg».proof.Proof.Gen.KernelIdeal.Frame
import Idealize.ShloMosaic.Lib.Pipeline.Value
import Idealize.ShloMosaic.Lib.ValueIdx
import proofs.«120064_j56435870270044_1_alg».proof.Proof.LibPlainDot
set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.SecondProduct

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The matrix product as one function of the two arrays: at (r, q) the sum over k of a[r, k] · w[k, q], on the
    extended reals. -/
def product (a : S100000x64.Idx → EReal) (w : S64x2.Idx → EReal) : S100000x2.Idx → EReal :=
  fun i => ∑ k : Fin 64, a (ix2 (n0 := 100000) (i 0) k) * w (ix2 k (n1 := 2) (i 1))

/-- The index maps over the grid: the left operand's and the result's windows move one block of rows per point, the
    right operand's window stays. -/
theorem blockIdx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at row `p`, column `q` of a block, on the extended reals: the changes of float format are the
    identity there and the matrix unit's product into the zero accumulator is the plain sum over the shared axis. -/
theorem body_apply (x0 : Vec Ideal S10000x64 .f32) (x1 : Vec Ideal S64x2 .f32) (p : Fin 10000) (q : Fin 2) :
    k2_pay1 (F := Ideal) x0 x1 (ix2 p q) = ∑ k : Fin 64, x0 (ix2 p k) * x1 (ix2 k q) := by
  unfold k2_pay1
  rw [shapeCast_self]
  exact Cert.Lib.PlainDot.matmul_plain_zero_apply (M := 10000) (K := 64) (N := 2) none
    (truncf .bf16 x0 bitsLt_bf16_f32) (truncf .bf16 x1 bitsLt_bf16_f32) p q

/-- What point `t` writes back is block `t` of the product of the two arrays as the region finds them. -/
theorem flushed_eq (c : Dev nD) (t : Fin cfg2.N) :
    (dat2 V c).flushed 2 t = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero zeros]
  simp only [View.ld_unit_zero (S := S10000x64) zeros, View.ld_unit_zero (S := S64x2) zeros]
  obtain ⟨e0, e1, e2, e3, e4, e5⟩ := blockIdx t
  funext j
  obtain ⟨p, q, rfl⟩ : ∃ (p : Fin 10000) (q : Fin 2), j = ix2 p q := ⟨j 0, j 1, eq_ix2 j⟩
  show k2_pay1 (F := Ideal) (iblk2 V c 0 t) (iblk2 V c 1 t) (ix2 p q)
    = product (V c main_v45) (V c main_arg4) (((cfg2.win 2).blk t).view.emb (ix2 p q))
  refine (body_apply (iblk2 V c 0 t) (iblk2 V c 1 t) p q).trans ?_
  refine Finset.sum_congr rfl fun k _ => ?_
  have h0 : ((cfg2.win 0).blk t).view.emb (ix2 p k)
      = ix2 (n0 := 100000) ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ((cfg2.win 1).blk t).view.emb (ix2 k q)
      = ix2 k (n1 := 2) ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 2 + 1 * q.val = win2_2.index t (1 : Fin 2) * 2 + 1 * q.val; omega
  have g0 : iblk2 V c 0 t (ix2 p k)
      = V c main_v45 (ix2 (n0 := 100000) ((((cfg2.win 2).blk t).view.emb (ix2 p q)) 0) k) := congrArg (V c main_v45) h0
  have g1 : iblk2 V c 1 t (ix2 k q)
      = V c main_arg4 (ix2 k (n1 := 2) ((((cfg2.win 2).blk t).view.emb (ix2 p q)) 1)) := congrArg (V c main_arg4) h1
  rw [g0, g1]

/-- An index of the output is in point `t`'s block iff each coordinate is in the block's range on its axis. -/
theorem mem_blk (t : Fin cfg2.N) (i : S100000x2.Idx) :
    i ∈ ((cfg2.win 2).blk t).view.set ↔ ∀ a : Fin 2, win2_2.index t a * S10000x2.size a ≤ (i a).val
      ∧ (i a).val < win2_2.index t a * S10000x2.size a + S10000x2.size a := by
  show i ∈ ((View.whole main_v46).slice (win2_2.rect t)).set ↔ _
  rw [View.set_slice_whole, Rect.mem_set_unit]
  exact Iff.rfl

/-- Row `r` of the output lies in the block of point `r / 10000`. -/
theorem cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : grid2.N = 10 := N_2
  have ht : (i 0).val / 10000 < cfg2.N := by show _ < grid2.N; rw [hN]; omega
  obtain ⟨e0, e1, e2, e3, e4, e5⟩ := blockIdx ⟨(i 0).val / 10000, ht⟩
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 2 ≤ (i 1).val
      ∧ (i 1).val < win2_2.index ⟨(i 0).val / 10000, ht⟩ (1 : Fin 2) * 2 + 2
    rw [e5]; omega

/-- After the region the output array holds the product of the two input arrays as the region found them. -/
theorem array_eq (c : Dev nD) : (dat2 V c).arrAt 2 cfg2.N = product (V c main_v45) (V c main_arg4) :=
  (dat2 V c).arrAt_eq_of_cover 2 _ (fun t _ => flushed_eq V c t) cover

end Cert.KernelIdeal.SecondProduct

end
-- ==== Proof.Boundary2.lean ====
/-
  The second and third regions. The second region leaves, in its result array, max(agg + b1, 0) entry by entry, which is
  the reference's bias addition followed by its rectifier read at an index (the reference spreads the bias vector over
  the rows by two broadcasts; the kernel reads row 0 of the reshaped bias at the entry's column: the same element). The
  third region leaves the matrix product of that array with W2, entry by entry the sum over the shared axis — the
  reference's second `dot_general` stage. Neither region touches any other buffer.
-/
import proofs.«120064_j56435870270044_1_alg».proof.Proof.Boundary1
import proofs.«120064_j56435870270044_1_alg».proof.Proof.BiasRelu
import proofs.«120064_j56435870270044_1_alg».proof.Proof.SecondProduct
import Idealize.ShloMosaic.Lib.StableHlo.Run
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.StableHlo
open Idealize.ShloMosaic.ValueIdx

namespace Cert.KernelIdeal.Boundary

open Cert.KernelIdeal Cert.KernelIdeal.Gen Cert.ReferenceIdeal.ReadP

variable (m : (ℓ : Loc nD τ sig) → Buf (Elt Ideal) ℓ) (ρ : Dev nD → PrngReg)

/-! ## At the second region's exit -/

/-- The hidden features: the region's result array is the reference's rectified, biased first aggregation. -/
theorem W6_hid (c : Dev nD) :
    W6 m ρ c (Proc.devRef .tc main_v45) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ((BiasRelu.array_eq (V5 m ρ) c).trans ?_)
  show BiasRelu.biasRelu (W5 m ρ c (Proc.devRef .tc main_v43)) (W5 m ρ c (Proc.devRef .tc main_v44)) = _
  rw [W5_agg1 m ρ c, W5_bias1 m ρ c]
  funext i
  rw [val_main_v47_apply, val_main_v46_apply, val_main_v45_apply, val_main_v44_apply, val_main_call1_v0_apply,
    val_main_call1_cst_apply]
  unfold BiasRelu.biasRelu
  rw [shapeCast_apply (m ((c.tc : Thread nD τ).loc main_arg3)) Cert.KernelIdeal.Facts₀.shapeCasts_S64_S1x64 (ix2 0 (i 1)) (idx_main_v44 (idx_main_v45 i)) (by
    show (S64.rowMajor (idx_main_v44 (idx_main_v45 i))).val = (S1x64.rowMajor (ix2 (n0 := 1) (n1 := 64) 0 (i 1))).val
    rewrite [Shape.rowMajor_val_one, Shape.rowMajor_val_two]
    show (i 1).val = 0 * 64 + (i 1).val
    omega)]

theorem W6_src (c : Dev nD) : W6 m ρ c (Proc.devRef .tc main_v3) = val_main_v3 (F := Ideal) (m ((c.tc : Thread nD τ).loc main_arg1)) :=
  (W6_of_ne m ρ c main_v3 (by decide)).trans (W5_src m ρ c)

theorem W6_dst (c : Dev nD) : W6 m ρ c (Proc.devRef .tc main_v6) = val_main_v6 (F := Ideal) (m ((c.tc : Thread nD τ).loc main_arg1)) :=
  (W6_of_ne m ρ c main_v6 (by decide)).trans (W5_dst m ρ c)

theorem W6_norm (c : Dev nD) : W6 m ρ c (Proc.devRef .tc main_v29) = val_main_v29 (F := Ideal) (m ((c.tc : Thread nD τ).loc main_arg1)) :=
  (W6_of_ne m ρ c main_v29 (by decide)).trans (W5_norm m ρ c)

theorem W6_arg0 (c : Dev nD) : W6 m ρ c (Proc.devRef .tc main_arg0) = m ((c.tc : Thread nD τ).loc main_arg0) :=
  (W6_of_ne m ρ c main_arg0 (by decide)).trans (W5_arg0 m ρ c)

theorem W6_arg4 (c : Dev nD) : W6 m ρ c (Proc.devRef .tc main_arg4) = m ((c.tc : Thread nD τ).loc main_arg4) :=
  (W6_of_ne m ρ c main_arg4 (by decide)).trans (W5_arg4 m ρ c)

theorem W6_arg5 (c : Dev nD) : W6 m ρ c (Proc.devRef .tc main_arg5) = m ((c.tc : Thread nD τ).loc main_arg5) :=
  (W6_of_ne m ρ c main_arg5 (by decide)).trans (W5_arg5 m ρ c)

/-! ## At the third region's exit -/

/-- The second layer's linear map: the region's result array is the reference's second matrix product. -/
theorem W7_lin2 (c : Dev nD) :
    W7 m ρ c (Proc.devRef .tc main_v46)
      = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ((SecondProduct.array_eq (V6 m ρ) c).trans ?_)
  show SecondProduct.product (W6 m ρ c (Proc.devRef .tc main_v45)) (W6 m ρ c (Proc.devRef .tc main_arg4)) = _
  rw [W6_hid m ρ c, W6_arg4 m ρ c]
  funext i
  rw [val_main_v48_apply]
  unfold SecondProduct.product
  refine Finset.sum_congr rfl fun k _ => ?_
  have hl : ix2 (n0 := 100000) (i 0) k = lidx_main_v48 i k := funext fun a => by
    match a with
    | ⟨0, _⟩ => rfl
    | ⟨1, _⟩ => rfl
  have hr : ix2 k (n1 := 2) (i 1) = ridx_main_v48 i k := funext fun a => by
    match a with
    | ⟨0, _⟩ => rfl
    | ⟨1, _⟩ => rfl
  rw [hl, hr]

theorem W7_src (c : Dev nD) : W7 m ρ c (Proc.devRef .tc main_v3) = val_main_v3 (F := Ideal) (m ((c.tc : Thread nD τ).loc main_arg1)) :=
  (W7_of_ne m ρ c main_v3 (by decide)).trans (W6_src m ρ c)

theorem W7_dst (c : Dev nD) : W7 m ρ c (Proc.devRef .tc main_v6) = val_main_v6 (F := Ideal) (m ((c.tc : Thread nD τ).loc main_arg1)) :=
  (W7_of_ne m ρ c main_v6 (by decide)).trans (W6_dst m ρ c)

theorem W7_norm (c : Dev nD) : W7 m ρ c (Proc.devRef .tc main_v29) = val_main_v29 (F := Ideal) (m ((c.tc : Thread nD τ).loc main_arg1)) :=
  (W7_of_ne m ρ c main_v29 (by decide)).trans (W6_norm m ρ c)

theorem W7_arg0 (c : Dev nD) : W7 m ρ c (Proc.devRef .tc main_arg0) = m ((c.tc : Thread nD τ).loc main_arg0) :=
  (W7_of_ne m ρ c main_arg0 (by decide)).trans (W6_arg0 m ρ c)

theorem W7_arg5 (c : Dev nD) : W7 m ρ c (Proc.devRef .tc main_arg5) = m ((c.tc : Thread nD τ).loc main_arg5) :=
  (W7_of_ne m ρ c main_arg5 (by decide)).trans (W6_arg5 m ρ c)

end Cert.KernelIdeal.Boundary

end
-- ==== Proof.BiasMask.lean ====
/-
  The fourth region of the kernel adds the bias row to the second layer's aggregated output and applies the node mask:
  out = (agg + b) · mask. Its grid has ten points; point t stages rows 10000·t … 10000·t + 9999 of the [100000, 2] input,
  the whole [1, 2] bias row, the same rows of the [100000, 1] mask column, and writes back the same rows of the output.
  The body's value at row p, column q of a block is (x[p, q] + b[0, q]) · mask[p, 0], so what point t writes back is
  block t of ONE function of the three arrays as the region finds them; the ten blocks tile the output (row r lies in
  block r / 10000), so the output array ends holding that function everywhere.
-/
import proofs.«120064_j56435870270044_1_alg».proof.Proof.Gen.KernelIdeal.Frame
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.BiasMask

open Cert.KernelIdeal Cert.KernelIdeal.Gen

variable {F : FTy → Type} [FloatOps F]
variable (V : (c : Dev nD) → (b : Ref sig .tc) → Buf (Elt F) ((c : Thread nD τ).loc b))

theorem zeros : (![0, 0] : Fin 2 → Nat) = fun _ => 0 := funext fun a => by fin_cases a <;> rfl

/-- The masked biased output as one function of the aggregated output `a` [100000, 2], the bias row `b` [1, 2] and the
    mask column `mk` [100000, 1]: at (r, q) it is (a[r, q] + b[0, q]) · mk[r, 0]. -/
def biasMask (a : S100000x2.Idx → Elt F .f32) (b : S1x2.Idx → Elt F .f32) (mk : S100000x1.Idx → Elt F .f32) :
    S100000x2.Idx → Elt F .f32 :=
  fun i => FloatOps.mulf (FloatOps.addf (a i) (b (ix2 0 (i 1)))) (mk (ix2 (i 0) 0))

/-- The index maps over the grid: the output's, the input's and the mask's windows move one block of rows per point,
    the bias window stays. -/
theorem blockIdx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The body's value at row `p`, column `q` of a block: (x[p, q] + b[0, q]) · mask[p, 0]. -/
theorem body_apply (x0 : Vec F S10000x2 .f32) (x1 : Vec F S1x2 .f32) (x2 : Vec F S10000x1 .f32) (p : Fin 10000) (q : Fin 2) :
    k3_pay1 x0 x1 x2 (ix2 p q)
      = FloatOps.mulf (FloatOps.addf (x0 (ix2 p q)) (x1 (ix2 0 q))) (x2 (ix2 p 0)) := by
  unfold k3_pay1
  show FloatOps.mulf (FloatOps.addf (shapeCast S10000x2 x0 _ (ix2 p q))
    (broadcastTo S10000x2 (shapeCast S1x2 x1 _) _ (ix2 p q)))
    (broadcastTo S10000x2 (shapeCast S10000x1 x2 _) _ (ix2 p q)) = _
  rw [shapeCast_self, shapeCast_self, shapeCast_self,
    broadcastTo_apply x1 _ (ix2 p q) (ix2 0 q) (fun a => by
      match a with
      | ⟨0, _⟩ => rfl
      | ⟨1, _⟩ => rfl),
    broadcastTo_apply x2 _ (ix2 p q) (ix2 p 0) (fun a => by
      match a with
      | ⟨0, _⟩ => rfl
      | ⟨1, _⟩ => rfl)]

/-- What point `t` writes back is block `t` of `biasMask` of the three arrays as the region finds them. -/
theorem flushed_eq (c : Dev nD) (t : Fin cfg3.N) :
    (dat3 V c).flushed 3 t
      = ((cfg3.win 3).blk t).view.read (Elt F) (biasMask (V c main_v59) (V c main_v66) (V c main_v65)) := by
  show (cfg3.win 3).cut (grid3.coords t) ((dat3 V c).after 3 t) = _
  rw [after3_3]
  unfold out3_3
  rw [View.canon_unit_zero zeros]
  simp only [View.ld_unit_zero (S := S10000x2) zeros, View.ld_unit_zero (S := S1x2) zeros, View.ld_unit_zero (S := S10000x1) zeros]
  obtain ⟨e0, e1, e2, e3, e4, e5, e6, e7⟩ := blockIdx t
  funext j
  obtain ⟨p, q, rfl⟩ : ∃ (p : Fin 10000) (q : Fin 2), j = ix2 p q := ⟨j 0, j 1, eq_ix2 j⟩
  show k3_pay1 (iblk3 V c 0 t) (iblk3 V c 1 t) (iblk3 V c 2 t) (ix2 p q)
    = biasMask (V c main_v59) (V c main_v66) (V c main_v65) (((cfg3.win 3).blk t).view.emb (ix2 p q))
  refine (body_apply (iblk3 V c 0 t) (iblk3 V c 1 t) (iblk3 V c 2 t) p q).trans ?_
  have h0 : ((cfg3.win 0).blk t).view.emb (ix2 p q) = ((cfg3.win 3).blk t).view.emb (ix2 p q) := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 2 + 1 * q.val = win3_3.index t (1 : Fin 2) * 2 + 1 * q.val; omega
  have h1 : ((cfg3.win 1).blk t).view.emb (ix2 0 q) = ix2 (n0 := 1) (n1 := 2) 0 ((((cfg3.win 3).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 2 + 1 * q.val = win3_3.index t (1 : Fin 2) * 2 + 1 * q.val; omega
  have h2 : ((cfg3.win 2).blk t).view.emb (ix2 p 0) = ix2 (n0 := 100000) (n1 := 1) ((((cfg3.win 3).blk t).view.emb (ix2 p q)) 0) 0 := by
    funext a; apply Fin.ext
    match a with
    | ⟨0, _⟩ => show win3_2.index t (0 : Fin 2) * 10000 + 1 * p.val = win3_3.index t (0 : Fin 2) * 10000 + 1 * p.val; omega
    | ⟨1, _⟩ => show win3_2.index t (1 : Fin 2) * 1 + 1 * 0 = 0; omega
  show FloatOps.mulf (FloatOps.addf (V c main_v59 (((cfg3.win 0).blk t).view.emb (ix2 p q)))
      (V c main_v66 (((cfg3.win 1).blk t).view.emb (ix2 0 q)))) (V c main_v65 (((cfg3.win 2).blk t).view.emb (ix2 p 0))) = _
  rw [h0, h1, h2]
  rfl

/-- An index of the output is in point `t`'s block iff each coordinate is in the block's range on its axis. -/
theorem mem_blk (t : Fin cfg3.N) (i : S100000x2.Idx) :
    i ∈ ((cfg3.win 3).blk t).view.set ↔ ∀ a : Fin 2, win3_3.index t a * S10000x2.size a ≤ (i a).val
      ∧ (i a).val < win3_3.index t a * S10000x2.size a + S10000x2.size a := by
  show i ∈ ((View.whole main_v67).slice (win3_3.rect t)).set ↔ _
  rw [View.set_slice_whole, Rect.mem_set_unit]
  exact Iff.rfl

/-- Row `r` of the output lies in the block of point `r / 10000`. -/
theorem cover (i : S100000x2.Idx) :
    ∃ t : Fin cfg3.N, (cfg3.win 3).flush t = true ∧ i ∈ ((cfg3.win 3).blk t).view.set := by
  have hi0 : (i 0).val < 100000 := (i 0).isLt
  have hi1 : (i 1).val < 2 := (i 1).isLt
  have hN : grid3.N = 10 := N_3
  have ht : (i 0).val / 10000 < cfg3.N := by show _ < grid3.N; rw [hN]; omega
  obtain ⟨e0, e1, e2, e3, e4, e5, e6, e7⟩ := blockIdx ⟨(i 0).val / 10000, ht⟩
  refine ⟨⟨(i 0).val / 10000, ht⟩, flush3_3 _, ?_⟩
  rw [mem_blk]
  intro a
  match a with
  | ⟨0, _⟩ =>
    show win3_3.index ⟨(i 0).val / 10000, ht⟩ (0 : Fin 2) * 10000 ≤ (i 0).val
      ∧ (i 0).val < win3_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win3_3.index ⟨(i 0).val / 10000, ht⟩ (1 : Fin 2) * 2 ≤ (i 1).val
      ∧ (i 1).val < win3_3.index ⟨(i 0).val / 10000, ht⟩ (1 : Fin 2) * 2 + 2
    rw [e7]; omega

/-- After the region the output array holds `biasMask` of the three input arrays as the region found them. -/
theorem array_eq (c : Dev nD) :
    (dat3 V c).arrAt 3 cfg3.N = biasMask (V c main_v59) (V c main_v66) (V c main_v65) :=
  (dat3 V c).arrAt_eq_of_cover 3 _ (fun t _ => flushed_eq V c t) cover

end Cert.KernelIdeal.BiasMask

end
-- ==== Proof.Boundary3.lean ====
/-
  The host operations before the fourth region, the fourth region, and the final reshape. The host operations gather
  the rows of the second product at every edge's source node, scale them by the edge's weight and add them up at the
  edge's destination node — the reference's second aggregation —, reshape the second bias vector into a row, and build
  the node mask (1 where the node's first feature equals 1, else 0) as a column. The fourth region leaves
  (agg + b2) · mask entry by entry: the reference's bias addition and masking read at an index (the reference spreads the
  bias over the rows and the mask over the two columns by broadcasts; the kernel reads row 0 of the reshaped bias and
  column 0 of the reshaped mask: the same elements). The last operation flattens the [100000, 2] result, as the
  reference's last operation does.
-/
import proofs.«120064_j56435870270044_1_alg».proof.Proof.Boundary2
import proofs.«120064_j56435870270044_1_alg».proof.Proof.BiasMask
import Idealize.ShloMosaic.Lib.StableHlo.Run
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.StableHlo
open Idealize.ShloMosaic.ValueIdx

namespace Cert.KernelIdeal.Boundary

open Cert.KernelIdeal Cert.KernelIdeal.Gen Cert.ReferenceIdeal.ReadP

variable (m : (ℓ : Loc nD τ sig) → Buf (Elt Ideal) ℓ) (ρ : Dev nD → PrngReg)

/-! ## At the fourth region's entry -/

/-- The second aggregation: the reference's sum, over the edges into each node, of the weighted rows of h · W2. -/
theorem W8_agg2 (c : Dev nD) :
    W8 m ρ c (Proc.devRef .tc main_v59)
      = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  dsimp only [W8, hostOps3]
  after_results_simp
  rw [W7_lin2 m ρ c, W7_src m ρ c, W7_dst m ρ c, W7_norm m ρ c]
  rfl

/-- The second bias vector as a row. -/
theorem W8_bias2 (c : Dev nD) :
    W8 m ρ c (Proc.devRef .tc main_v66) = shapeCast S1x2 (m ((c.tc : Thread nD τ).loc main_arg5)) Cert.KernelIdeal.Facts₀.shapeCasts_S2_S1x2 := by
  dsimp only [W8, hostOps3]
  after_results_simp
  rw [W7_arg5 m ρ c]
  rfl

/-- The node mask as a column. -/
theorem W8_mask (c : Dev nD) :
    W8 m ρ c (Proc.devRef .tc main_v65)
      = shapeCast S100000x1 (val_main_v69 (F := Ideal) (m ((c.tc : Thread nD τ).loc main_arg0))) Cert.KernelIdeal.Facts₀.shapeCasts_S100000_S100000x1 := by
  dsimp only [W8, hostOps3]
  after_results_simp
  rw [W7_arg0 m ρ c]
  rfl

/-! ## At the fourth region's exit -/

/-- The masked output: the region's result array is the reference's biased, masked second aggregation. -/
theorem W9_out (c : Dev nD) :
    W9 m ρ c (Proc.devRef .tc main_v67) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 3).trans ((BiasMask.array_eq (V8 m ρ) c).trans ?_)
  show BiasMask.biasMask (W8 m ρ c (Proc.devRef .tc main_v59)) (W8 m ρ c (Proc.devRef .tc main_v66))
    (W8 m ρ c (Proc.devRef .tc main_v65)) = _
  rw [W8_agg2 m ρ c, W8_bias2 m ρ c, W8_mask m ρ c]
  funext i
  rw [val_main_v72_apply, val_main_v64_apply, val_main_v63_apply, val_main_v62_apply, val_main_v71_apply,
    val_main_v70_apply]
  unfold BiasMask.biasMask
  rw [shapeCast_apply (m ((c.tc : Thread nD τ).loc main_arg5)) Cert.KernelIdeal.Facts₀.shapeCasts_S2_S1x2 (ix2 0 (i 1)) (idx_main_v62 (idx_main_v63 i)) (by
      show (S2.rowMajor (idx_main_v62 (idx_main_v63 i))).val = (S1x2.rowMajor (ix2 (n0 := 1) (n1 := 2) 0 (i 1))).val
      rewrite [Shape.rowMajor_val_one, Shape.rowMajor_val_two]
      show (i 1).val = 0 * 2 + (i 1).val
      omega),
    shapeCast_apply (val_main_v69 (F := Ideal) (m ((c.tc : Thread nD τ).loc main_arg0))) Cert.KernelIdeal.Facts₀.shapeCasts_S100000_S100000x1 (ix2 (i 0) 0)
      (idx_main_v70 (idx_main_v71 i)) (by
      show (S100000.rowMajor (idx_main_v70 (idx_main_v71 i))).val
        = (S100000x1.rowMajor (ix2 (n0 := 100000) (n1 := 1) (i 0) 0)).val
      rewrite [Shape.rowMajor_val_one, Shape.rowMajor_val_two]
      show (i 0).val = (i 0).val * 1 + 0
      omega)]

/-! ## At the return -/

/-- The returned vector is the reference's. -/
theorem W10_result (c : Dev nD) :
    W10 m ρ c (Proc.devRef .tc main_v68) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  dsimp only [W10, hostOps4]
  after_results_simp
  rw [W9_out m ρ c]
  rfl

end Cert.KernelIdeal.Boundary

end
-- ==== Proof.lean ====
/-
  A two-layer graph convolution with a node mask, as a kernel and as plain array code: the certificate that the two
  compute the same extended reals.

  Both programs start from the node features x [100000, 128], the edge list, two weight matrices and two bias vectors.
  From the edge list alone they build the source and destination node of every edge (one self loop per node appended),
  every node's in-degree d, and the edge weight d[src]^(-1/2) · d[dst]^(-1/2) (zero where a degree is not positive).
  A layer maps node features h to  b + Σ_{edges into the node} weight · (h · W)[source row];  the first layer is followed
  by the rectifier max(·, 0), the second by multiplication with the mask (1 where the node's first feature equals 1,
  else 0), and the [100000, 2] result is returned flattened.

  The kernel computes the two products h · W, the bias-and-rectifier step and the bias-and-mask step in four gridded
  regions of ten row blocks each, and everything else — the edge bookkeeping, the gathers and the scatter-additions —
  by the same host operations, in the same order, as the reference. On the extended reals a change of float format is
  the identity and the matrix unit's product into a zero accumulator is the plain sum over the shared axis, so each
  region leaves in its result array exactly the reference's corresponding stage (Proof/FirstProduct, BiasRelu,
  SecondProduct, BiasMask: what a grid point writes back is its block of one whole-array function, and the blocks tile
  the array); between the regions the buffers hold the reference's stages because the operations are the reference's
  (Proof/Boundary0 … Boundary3, one segment boundary at a time). No step uses more than the definitions of the
  operations: no law that could fail at an infinity is needed, and the finiteness precondition is never opened.

  The reference's run and its stages read at an index are the repaired copies Proof/RefRun and Proof/RefRead of two
  generated modules; the kernel's run with its result named is Proof/KernelRun. The idealization rewrote nothing, so
  `preserves` is trivial; the three frames are the generated ones.
-/
import proofs.«120064_j56435870270044_1_alg».proof.Defs
import proofs.«120064_j56435870270044_1_alg».proof.Proof.Gen.Kernel
import proofs.«120064_j56435870270044_1_alg».proof.Proof.Gen.Kernel.Frame
import proofs.«120064_j56435870270044_1_alg».proof.Proof.Gen.KernelIdeal
import proofs.«120064_j56435870270044_1_alg».proof.Proof.Gen.KernelIdeal.Frame
import proofs.«120064_j56435870270044_1_alg».proof.Proof.Gen.ReferenceIdeal
import proofs.«120064_j56435870270044_1_alg».proof.Proof.Gen.Pre_finite_inputs
import proofs.«120064_j56435870270044_1_alg».proof.Proof.RefRun
import proofs.«120064_j56435870270044_1_alg».proof.Proof.RefRead
import proofs.«120064_j56435870270044_1_alg».proof.Proof.KernelRun
import proofs.«120064_j56435870270044_1_alg».proof.Proof.Boundary3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals the kernel's returned vector and the reference's are one function of the arguments: the
    reference's last stage. The kernel's run ends with the returned vector at the last segment boundary's contents,
    which is that stage of the kernel's arguments; the reference's run ends at the same stage of its own arguments,
    and the arguments agree. -/
theorem algebraic : Cert.algebraic_KernelIdeal_ReferenceIdeal := by
  intro m ρ m' ρ' _ hagree
  refine ⟨fun c => Cert.ReferenceIdeal.ReadP.val_main_v73 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Boundary.W10_result m ρ c), (h c).2⟩)
      (Cert.KernelIdeal.Result.run_result m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v73_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
